-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x128 : Shape := ⟨2, ![4096, 128]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S4096x4096 32) (main_arg2 : FVec F S4096x128 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096x128 : Shape := ⟨2, ![4096, 128]⟩
abbrev S4096 : Shape := ⟨1, ![4096]⟩
abbrev S1024x1024 : Shape := ⟨2, ![1024, 1024]⟩
abbrev S1024x128 : Shape := ⟨2, ![1024, 128]⟩
abbrev S1024 : Shape := ⟨1, ![1024]⟩
abbrev S1024x32 : Shape := ⟨2, ![1024, 32]⟩
abbrev S1024x32x32 : Shape := ⟨3, ![1024, 32, 32]⟩
abbrev S1024x32x1 : Shape := ⟨3, ![1024, 32, 1]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x128, .f32⟩
  | .hbm, ⟨3, _⟩ => ⟨S4096, .f32⟩
  | .hbm, ⟨4, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .i32⟩
  | .local _ .vmem, ⟨3, _⟩ => ⟨S1024x1024, .i32⟩
  | .local _ .vmem, ⟨4, _⟩ => ⟨S1024x128, .f32⟩
  | .local _ .vmem, ⟨5, _⟩ => ⟨S1024x128, .f32⟩
  | .local _ .vmem, ⟨6, _⟩ => ⟨S1024, .f32⟩
  | .local _ .vmem, ⟨7, _⟩ => ⟨S1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c32_i32 : BitVec 32 := 32#32
  let v3 : BitVec 32 := Scalar.muli arg2 c32_i32
  v3
def k0_off1 (i : grid0.Coords) : Fin 2 → Nat :=
  let c0 : Index := 0#32
  let arg2 : BitVec 32 := BitVec.ofNat 32 (i 2).val
  let c32_i32 : BitVec 32 := 32#32
  let v3 : BitVec 32 := Scalar.muli arg2 c32_i32
  let v4 : BitVec 32 := v3
  let v5 : Index := Scalar.indexCast v4
  ![0, v5.toNat]
def k0_cond2 (i : grid0.Coords) : BitVec 1 :=
  let arg2 : BitVec 32 := BitVec.ofNat 32 (i 2).val
  let c3_i32 : BitVec 32 := 3#32
  let v25 : BitVec 1 := Scalar.cmpi .eq arg2 c3_i32
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S1024x32 : 0 < S1024x32.numel
  shapeCasts_S1024x1024_S1024x32x32 : S1024x1024.ShapeCasts S1024x32x32
  shapeCasts_S1024x32_S1024x32x1 : S1024x32.ShapeCasts S1024x32x1
  broadcasts_S1024x32x1_S1024x32x32 : S1024x32x1.Broadcasts S1024x32x32
  shapeCasts_S1024x32x32_S1024x1024 : S1024x32x32.ShapeCasts S1024x1024
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  k0_mult1_dvd : ∀ i : grid0.Coords, 32 ∣ (k0_mult1 i).toNat
  k0_off1_inb : ∀ i : grid0.Coords, ∀ a, (k0_off1 i) a + S1024x32.size a ≤ S1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .i32 = 32 ∨ (Rect.block (s := S4096x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .f32 = 32 ∨ (Rect.block (s := S4096x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S4096.size a
  hwx0_3 : ∀ i : grid0.Coords, EltTy.bits .f32 = 32 ∨ (Rect.block (s := S4096) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x128 : Shape := ⟨2, ![4096, 128]⟩
abbrev S4096 : Shape := ⟨1, ![4096]⟩
abbrev S_ : Shape := ⟨0, ![]⟩
abbrev S4096x128x32 : Shape := ⟨3, ![4096, 128, 32]⟩
abbrev S4096x128x1 : Shape := ⟨3, ![4096, 128, 1]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x128, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x128x32, .f32⟩
  | .hbm, ⟨9, _⟩ => ⟨S4096x128x1, .f32⟩
  | .hbm, ⟨10, _⟩ => ⟨S4096x128x32, .f32⟩
  | .hbm, ⟨11, _⟩ => ⟨S4096x128x32, .f32⟩
  | .hbm, ⟨12, _⟩ => ⟨S4096x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S4096x128x32 : S4096x4096.ShapeCasts S4096x128x32
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid step leaves behind, as values of what it loads.

  The body keeps a 1024×1024 accumulator across the four steps of a reduction. Every step stores into it
  `acc + X · Wᵀ`, where `X` is the step's 1024×1024 block of activations and `W` its block of dequantized
  weights (the step's 32 scale columns picked out of the 128 it holds); on the first step of a reduction
  `acc` is the zero block the step has just stored, on the others what the step before left. The last step
  also stores the accumulator plus the bias row into the output block.
-/
import proofs.«151352_j63264868270569_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

theorem hz1 : (![0] : Fin 1 → Nat) = fun _ => 0 := funext fun a => by fin_cases a; rfl

/-- The 32 scale columns a step uses, out of the 128 its scales block holds: columns `32k … 32k + 31` at the
    step's position `k` along the reduction. -/
abbrev scaleCols (i : grid0.Coords) (x2 : Vec F S1024x128 .f32) : Vec F S1024x32 .f32 :=
  View.ld x2 (Rect.unit (s := S1024x128) (k0_off1 i) S1024x32.size (Facts₀.k0_off1_inb i))

/-- A middle step of a reduction leaves the accumulator at what it held plus the step's product. -/
theorem acc_B (c : Dev nD) (i : grid0.Coords) (a3 : Memref sig .tc .vmem S1024x1024 .f32) (h3 : a3.IsWhole) (a4 : Memref sig .tc .vmem S1024x1024 .i32) (h4 : a4.IsWhole) (a5 : Memref sig .tc .vmem S1024x128 .f32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i)
    (x0 : Vec F S1024x1024 .f32) (x1 : Vec F S1024x1024 .i32) (x2 : Vec F S1024x128 .f32) (x3 : Vec F S1024 .f32) (xs0 : Vec F S1024x1024 .f32) :
    sout0_B_0 c i a3 h3 a4 h4 a5 h5 a6 h6 a7 h7 a8 h8 hc0 hc1 x0 x1 x2 x3 xs0 = k0_pay2 (scaleCols i x2) x1 x0 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz]
  simp only [View.readAt_eq_ld, h3.read_unread, h4.read_unread, h5.read_unread, h8.read_unread, View.ld_unit_zero (S := S1024x1024) hz]

/-- The last step of a reduction leaves the accumulator the same way. -/
theorem acc_C (c : Dev nD) (i : grid0.Coords) (a3 : Memref sig .tc .vmem S1024x1024 .f32) (h3 : a3.IsWhole) (a4 : Memref sig .tc .vmem S1024x1024 .i32) (h4 : a4.IsWhole) (a5 : Memref sig .tc .vmem S1024x128 .f32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x1024 .f32) (x1 : Vec F S1024x1024 .i32) (x2 : Vec F S1024x128 .f32) (x3 : Vec F S1024 .f32) (xs0 : Vec F S1024x1024 .f32) :
    sout0_C_0 c i a3 h3 a4 h4 a5 h5 a6 h6 a7 h7 a8 h8 hc0 hc1 x0 x1 x2 x3 xs0 = k0_pay2 (scaleCols i x2) x1 x0 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h8.read_unread, View.ld_unit_zero (S := S1024x1024) hz, View.ld_unit_zero (S := S1024) hz1]
  rfl

/-- The first step of a reduction stores the zero block, reads it back, and leaves zero plus its product. -/
theorem acc_A (c : Dev nD) (i : grid0.Coords) (a3 : Memref sig .tc .vmem S1024x1024 .f32) (h3 : a3.IsWhole) (a4 : Memref sig .tc .vmem S1024x1024 .i32) (h4 : a4.IsWhole) (a5 : Memref sig .tc .vmem S1024x128 .f32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i)
    (x0 : Vec F S1024x1024 .f32) (x1 : Vec F S1024x1024 .i32) (x2 : Vec F S1024x128 .f32) (x3 : Vec F S1024 .f32) :
    sout0_A_0 c i a3 h3 a4 h4 a5 h5 a6 h6 a7 h7 a8 h8 hc0 hc1 x0 x1 x2 x3 = k0_pay2 (scaleCols i x2) x1 x0 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h6.read_unread, h8.read_unread, View.ld_unit_zero (S := S1024x1024) hz, View.ld_unit_zero (S := S1024) hz1]
  rfl

/-- The last step of a reduction leaves in the output block the accumulator it has just stored plus the bias row. -/
theorem out_C (c : Dev nD) (i : grid0.Coords) (a3 : Memref sig .tc .vmem S1024x1024 .f32) (h3 : a3.IsWhole) (a4 : Memref sig .tc .vmem S1024x1024 .i32) (h4 : a4.IsWhole) (a5 : Memref sig .tc .vmem S1024x128 .f32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x1024 .f32) (x1 : Vec F S1024x1024 .i32) (x2 : Vec F S1024x128 .f32) (x3 : Vec F S1024 .f32) (xs0 : Vec F S1024x1024 .f32) :
    out0_C_4 c i a3 h3 a4 h4 a5 h5 a6 h6 a7 h7 a8 h8 hc0 hc1 x0 x1 x2 x3 xs0 = k0_pay3 (k0_pay2 (scaleCols i x2) x1 x0 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz, View.readCov_unit_zero (S := S1024x1024) _ hz]
  simp only [View.readAt_eq_ld, h3.read_unread, h4.read_unread, h5.read_unread, h6.read_unread, h8.read_unread, View.ld_unit_zero (S := S1024x1024) hz, View.ld_unit_zero (S := S1024) hz1]
  rfl

end Cert.KernelIdeal.Pieces

end
-- ==== Proof.Spec.lean ====
/-
  The specification of the quantized linear layer, index by index, on the extended reals.

  Weights are stored as integers `q[o,i]` with one scale per group of 32 consecutive columns:
  the dequantized weight is `w[o,i] = (q[o,i] - 128) * s[o, i / 32]`, and the layer is
  `y[t,o] = (Σ_i x[t,i] * w[o,i]) + b[o]` over all 4096 columns `i`.

  A sum over the 4096 columns is the sum of its four stretches of 1024 consecutive columns
  (`sum_eq_tiles`): regrouping a finite sum needs only that addition is commutative and associative,
  which holds on the extended reals with no finiteness assumption.
-/
import Idealize.ShloMosaic.PureOps.Ideal
import Idealize.ShloMosaic.Lib.ValueIdx

noncomputable section

namespace Cert.QLinear

open Idealize.ShloMosaic Idealize.ShloMosaic.ValueIdx

/-- The scale group of column `i`: 32 consecutive columns share one scale. -/
def grp (i : Fin 4096) : Fin 128 := ⟨i.val / 32, by have := i.isLt; omega⟩

/-- The dequantized weight `w[o,i] = (q[o,i] - 128) * s[o, i / 32]`: the stored integer is read signed and
    exactly, and `128` is the value of the f32 word `0x43000000`. -/
def weight (q : (⟨2, ![4096, 4096]⟩ : Shape).Idx → BitVec 32) (s : (⟨2, ![4096, 128]⟩ : Shape).Idx → EReal)
    (o i : Fin 4096) : EReal :=
  ((((q (ix2 o i)).toInt : ℝ) : EReal) - Ideal.ofBits .f32 0x43000000#32) * s (ix2 o (grp i))

/-- One summand of the product of row `t` of `x` with row `o` of the dequantized weights. -/
def term (x : (⟨2, ![8192, 4096]⟩ : Shape).Idx → EReal) (q : (⟨2, ![4096, 4096]⟩ : Shape).Idx → BitVec 32)
    (s : (⟨2, ![4096, 128]⟩ : Shape).Idx → EReal) (t : Fin 8192) (o i : Fin 4096) : EReal :=
  x (ix2 t i) * weight q s o i

/-- Column `c` of stretch `k`: a stretch is 1024 consecutive columns. -/
def col (k : Fin 4) (c : Fin 1024) : Fin 4096 := ⟨1024 * k.val + c.val, by have := k.isLt; have := c.isLt; omega⟩

/-- The sum of `f` over stretch `k`. -/
def tileSum (f : Fin 4096 → EReal) (k : Fin 4) : EReal := ∑ c : Fin 1024, f (col k c)

/-- A sum over the 4096 columns is the sum over its four stretches, first to last. -/
theorem sum_eq_tiles (f : Fin 4096 → EReal) :
    ∑ i : Fin 4096, f i = tileSum f 0 + tileSum f 1 + tileSum f 2 + tileSum f 3 := by
  have e : ∑ i : Fin 4096, f i = ∑ p : Fin 4 × Fin 1024, f (col p.1 p.2) := by
    refine (Equiv.sum_comp (finProdFinEquiv (m := 4) (n := 1024)) f).symm.trans ?_
    refine Finset.sum_congr rfl fun p _ => congrArg f (Fin.ext ?_)
    show p.2.val + 1024 * p.1.val = 1024 * p.1.val + p.2.val
    omega
  rw [e, Fintype.sum_prod_type, Fin.sum_univ_four]
  rfl

/-- The layer's output at `(t, o)`. -/
def out (x : (⟨2, ![8192, 4096]⟩ : Shape).Idx → EReal) (q : (⟨2, ![4096, 4096]⟩ : Shape).Idx → BitVec 32)
    (s : (⟨2, ![4096, 128]⟩ : Shape).Idx → EReal) (b : (⟨1, ![4096]⟩ : Shape).Idx → EReal) :
    (⟨2, ![8192, 4096]⟩ : Shape).Idx → EReal :=
  fun j => (∑ i : Fin 4096, term x q s (j 0) (j 1) i) + b (ix1 (j 1))

/-- An accumulator started at zero and fed the four stretches in order, then the bias: the output. -/
theorem chain_eq_out (f : Fin 4096 → EReal) (bias : EReal) :
    ((((0 + tileSum f 0) + tileSum f 1) + tileSum f 2) + tileSum f 3) + bias = (∑ i : Fin 4096, f i) + bias := by
  rw [sum_eq_tiles, zero_add]

end Cert.QLinear

end
-- ==== Proof.Payload.lean ====
/-
  The body's arithmetic at an index, on the extended reals.

  A step's weight block is dequantized in place: entry `(b, c)` of the 1024×1024 block is the stored integer
  minus 128, times the scale of column `c`'s group `c / 32` (the block is viewed as 1024×32×32 so that one
  scale multiplies 32 consecutive columns, and viewed back: both views keep the row-major position). The product
  `X · Wᵀ` at `(a, b)` is `Σ_c X[a,c] · W[b,c]` over the block's 1024 columns; the narrowing of both operands to
  a 16-bit format changes nothing on the extended reals.
-/
import proofs.«151352_j63264868270569_1_alg».proof.Proof.Gen.KernelIdeal.Skeleton
import proofs.«151352_j63264868270569_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The scale group, within a block, of the block's column `c`. -/
def tgrp (c : Fin 1024) : Fin 32 := ⟨c.val / 32, by have := c.isLt; omega⟩

/-- The position of the block's column `c` inside its group. -/
def tlane (c : Fin 1024) : Fin 32 := ⟨c.val % 32, Nat.mod_lt _ (by decide)⟩

/-- The block the first step of a reduction stores is zero everywhere. -/
theorem zero_apply (y : S1024x1024.Idx) : k0_pay1 (F := Ideal) y = 0 := by
  unfold k0_pay1
  rw [shapeCast_self]
  exact Ideal.ofBits_zero_f32

/-- The dequantized weight block at `(b, c)`: `(q[b,c] - 128) * s[b, c / 32]`. -/
theorem dequant_apply (v6 : FVec Ideal S1024x32 .f32) (v7 : IVec S1024x1024 32)
    (h1 : S1024x1024.ShapeCasts S1024x32x32) (h2 : S1024x32.ShapeCasts S1024x32x1)
    (h3 : S1024x32x1.Broadcasts S1024x32x32) (h4 : S1024x32x32.ShapeCasts S1024x1024) (b c : Fin 1024) :
    shapeCast S1024x1024 (mulf
        (shapeCast S1024x32x32 (subf (sitofp .f32 v7 : FVec Ideal S1024x1024 .f32)
          (broadcast S1024x1024 (Scalar.ofBits (F := Ideal) .f32 0x43000000#32))) h1)
        (broadcastTo S1024x32x32 (shapeCast S1024x32x1 v6 h2) h3)) h4 (ix2 b c)
      = ((((v7 (ix2 b c)).toInt : ℝ) : EReal) - Ideal.ofBits .f32 0x43000000#32) * v6 (ix2 b (tgrp c)) := by
  have hb := b.isLt
  have hc := c.isLt
  rw [shapeCast_apply _ h4 (ix2 b c) (ix3 b (tgrp c) (tlane c)) (by
    rw [Shape.rowMajor_val_three, Shape.rowMajor_val_two]
    show (b.val * 32 + c.val / 32) * 32 + c.val % 32 = b.val * 1024 + c.val
    omega)]
  rw [mulf_apply]
  rw [shapeCast_apply _ h1 (ix3 b (tgrp c) (tlane c)) (ix2 b c) (by
    rw [Shape.rowMajor_val_three, Shape.rowMajor_val_two]
    show b.val * 1024 + c.val = (b.val * 32 + c.val / 32) * 32 + c.val % 32
    omega)]
  rw [broadcastTo_apply _ h3 (ix3 b (tgrp c) (tlane c)) (ix3 b (tgrp c) (0 : Fin 1)) (fun d => by
    match d with
    | ⟨0, _⟩ => show b.val = if (1024 : Nat) = 1 then 0 else b.val; rw [if_neg (by decide)]
    | ⟨1, _⟩ => show c.val / 32 = if (32 : Nat) = 1 then 0 else c.val / 32; rw [if_neg (by decide)]
    | ⟨2, _⟩ => show 0 = if (1 : Nat) = 1 then 0 else c.val % 32; rw [if_pos rfl])]
  rw [shapeCast_apply _ h2 (ix3 b (tgrp c) (0 : Fin 1)) (ix2 b (tgrp c)) (by
    rw [Shape.rowMajor_val_three, Shape.rowMajor_val_two]
    show b.val * 32 + c.val / 32 = (b.val * 32 + c.val / 32) * 1 + 0
    omega)]
  rfl

theorem lhs_row (i : S1024x1024.Idx) (q : (dot_S1024x1024_S1024x1024_S1024x1024_1_1_0_0_n_n).contr.Idx) :
    ((dot_S1024x1024_S1024x1024_S1024x1024_1_1_0_0_n_n).lhsIdx i q 0).val = (i 0).val := by
  unfold DotDims.lhsIdx
  rw [dif_neg (show ¬(0 : Fin S1024x1024.rank) ∈ (dot_S1024x1024_S1024x1024_S1024x1024_1_1_0_0_n_n).lhsBatch by decide),
    dif_pos (show (0 : Fin S1024x1024.rank) ∈ (dot_S1024x1024_S1024x1024_S1024x1024_1_1_0_0_n_n).lhsNonContracting by decide)]
  rfl

theorem rhs_row (i : S1024x1024.Idx) (q : (dot_S1024x1024_S1024x1024_S1024x1024_1_1_0_0_n_n).contr.Idx) :
    ((dot_S1024x1024_S1024x1024_S1024x1024_1_1_0_0_n_n).rhsIdx i q 0).val = (i 1).val := by
  unfold DotDims.rhsIdx
  rw [dif_neg (show ¬(0 : Fin S1024x1024.rank) ∈ (dot_S1024x1024_S1024x1024_S1024x1024_1_1_0_0_n_n).rhsBatch by decide),
    dif_pos (show (0 : Fin S1024x1024.rank) ∈ (dot_S1024x1024_S1024x1024_S1024x1024_1_1_0_0_n_n).rhsNonContracting by decide)]
  rfl

/-- The block product into a zero accumulator at `(a, b)`: the sum over the block's columns of the row-`a` entry
    of the left operand times the row-`b` entry of the right one (both operands are contracted along their columns). -/
theorem blockdot_apply {φ₁ φ₂ : FTy} (l : FVec Ideal S1024x1024 φ₁) (r : FVec Ideal S1024x1024 φ₂) (a b : Fin 1024) :
    matmul dot_S1024x1024_S1024x1024_S1024x1024_1_1_0_0_n_n none l r (constant S1024x1024 .f32 0x00000000#32) (ix2 a b)
      = ∑ c : Fin 1024, l (ix2 a c) * r (ix2 b c) := by
  simp only [matmul]
  rw [Ideal.matmul_constant_zero_apply,
    ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : (dot_S1024x1024_S1024x1024_S1024x1024_1_1_0_0_n_n).lhsIdx (ix2 a b)
      ((ValueIdx.contrEquiv1 dot_S1024x1024_S1024x1024_S1024x1024_1_1_0_0_n_n 1024 rfl rfl).symm k) = ix2 a k :=
    funext fun d => Fin.ext (by
      match d with
      | ⟨0, _⟩ => exact lhs_row _ _
      | ⟨1, _⟩ => exact ((dot_S1024x1024_S1024x1024_S1024x1024_1_1_0_0_n_n).lhsIdx_val_of_single rfl _ _).trans hk)
  have er : (dot_S1024x1024_S1024x1024_S1024x1024_1_1_0_0_n_n).rhsIdx (ix2 a b)
      ((ValueIdx.contrEquiv1 dot_S1024x1024_S1024x1024_S1024x1024_1_1_0_0_n_n 1024 rfl rfl).symm k) = ix2 b k :=
    funext fun d => Fin.ext (by
      match d with
      | ⟨0, _⟩ => exact rhs_row _ _
      | ⟨1, _⟩ => exact ((dot_S1024x1024_S1024x1024_S1024x1024_1_1_0_0_n_n).rhsIdx_val_of_single rfl _ _).trans hk)
  rw [el, er]

/-- What a step stores into the accumulator, at `(a, b)`: what it held there plus the step's product. -/
theorem step_apply (v6 : Vec Ideal S1024x32 .f32) (v7 : Vec Ideal S1024x1024 .i32) (v17 v19 : Vec Ideal S1024x1024 .f32)
    (a b : Fin 1024) :
    k0_pay2 v6 v7 v17 v19 (ix2 a b)
      = v19 (ix2 a b) + ∑ c : Fin 1024, v17 (ix2 a c)
          * (((((v7 (ix2 b c)).toInt : ℝ) : EReal) - Ideal.ofBits .f32 0x43000000#32) * v6 (ix2 b (tgrp c))) := by
  unfold k0_pay2
  rw [shapeCast_self, addf_apply, blockdot_apply]
  refine congrArg (v19 (ix2 a b) + ·) (Finset.sum_congr rfl fun c _ => ?_)
  rw [truncf_apply, truncf_apply, dequant_apply]

/-- What the last step stores into the output block, at `(a, b)`: the accumulator there plus the bias of column `b`. -/
theorem bias_apply (v28 : Vec Ideal S1024x1024 .f32) (v29 : Vec Ideal S1024 .f32) (a b : Fin 1024) :
    k0_pay3 v28 v29 (ix2 a b) = v28 (ix2 a b) + v29 (ix1 b) := by
  unfold k0_pay3
  rw [addf_apply]
  rw [broadcastTo_apply _ _ (ix2 a b) (ix2 (0 : Fin 1) b) (fun d => by
    match d with
    | ⟨0, _⟩ => show 0 = if (1 : Nat) = 1 then 0 else a.val; rw [if_pos rfl]
    | ⟨1, _⟩ => show b.val = if (1024 : Nat) = 1 then 0 else b.val; rw [if_neg (by decide)])]
  rw [shapeCast_apply _ _ (ix2 (0 : Fin 1) b) (ix1 b) (by
    rw [Shape.rowMajor_val_one, Shape.rowMajor_val_two]
    show b.val = 0 * 1024 + b.val
    omega)]

end Cert.KernelIdeal.Payload

end
-- ==== Proof.Blocks.lean ====
/-
  The blocks a grid step works on, read off the argument arrays.

  The grid is 8 × 4 × 4: step `n` works on row block `n / 16` of the activations and of the output, on column
  block `(n / 4) % 4` of the output — that is, row block `(n / 4) % 4` of the weights, of the scales and of the
  bias —, and on stretch `n % 4` of the 4096 reduction columns. Blocks are 1024 wide, so entry `a` of block
  `r` along an axis is entry `1024 r + a` of the array along it; the scales block holds all 128 groups of its
  rows, and the step uses the 32 groups `32 (n % 4) … 32 (n % 4) + 31` of its stretch.
-/
import proofs.«151352_j63264868270569_1_alg».proof.Proof.Gen.KernelIdeal.Frame
import proofs.«151352_j63264868270569_1_alg».proof.Proof.Pieces
import proofs.«151352_j63264868270569_1_alg».proof.Proof.Spec
import Idealize.ShloMosaic.Lib.ValueIdx
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces Cert.QLinear

variable {F : FTy → Type} [FloatOps F]
variable (m : (ℓ : Loc nD τ sig) → Buf (Elt F) ℓ)

/-- Row `a` of row block `r` of an 8192-row array. -/
def rowOf (r : Fin 8) (a : Fin 1024) : Fin 8192 := ⟨1024 * r.val + a.val, by have := r.isLt; have := a.isLt; omega⟩

/-- Scale group `g` of stretch `k`: a stretch of 1024 columns has 32 groups. -/
def grpOf (k : Fin 4) (g : Fin 32) : Fin 128 := ⟨32 * k.val + g.val, by have := k.isLt; have := g.isLt; omega⟩

/-! ### The index maps, decided over the grid's 128 points -/

theorem idx_x : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)

theorem idx_q : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)

theorem idx_s : ∀ t : Fin cfg0.N, win0_2.index t (0 : Fin 2) = t.val / 4 % 4 ∧ win0_2.index t (1 : Fin 2) = 0 :=
  (by decide +kernel : ∀ t : Fin grid0.N, win0_2.index t (0 : Fin 2) = t.val / 4 % 4 ∧ win0_2.index t (1 : Fin 2) = 0)

theorem idx_b : ∀ t : Fin cfg0.N, win0_3.index t (0 : Fin 1) = t.val / 4 % 4 :=
  (by decide +kernel : ∀ t : Fin grid0.N, win0_3.index t (0 : Fin 1) = t.val / 4 % 4)

theorem idx_o : ∀ t : Fin cfg0.N, win0_4.index t (0 : Fin 2) = t.val / 16 ∧ win0_4.index t (1 : Fin 2) = t.val / 4 % 4 :=
  (by decide +kernel : ∀ t : Fin grid0.N, win0_4.index t (0 : Fin 2) = t.val / 16 ∧ win0_4.index t (1 : Fin 2) = t.val / 4 % 4)

/-- The step's position along the reduction is its third grid coordinate. -/
theorem step_k : ∀ t : Fin cfg0.N, ((grid0.coords t) 2).val = t.val % 4 :=
  (by decide +kernel : ∀ t : Fin grid0.N, ((grid0.coords t) 2).val = t.val % 4)

/-! ### The four input blocks at explicit coordinates -/

/-- The activations block: rows of row block `r`, columns of stretch `k`. -/
theorem xblk_apply (c : Dev nD) (t : Fin cfg0.N) (r : Fin 8) (k : Fin 4) (hr : t.val / 16 = r.val) (hk : t.val % 4 = k.val)
    (a cc : Fin 1024) :
    (iblk m c 0 t : Vec F S1024x1024 .f32) (ix2 a cc) = m ((c : Thread nD τ).loc main_arg0) (ix2 (rowOf r a) (col k cc)) := by
  unfold iblk
  rw [View.read_apply]
  show V m c main_arg0 _ = m (c.tc.loc main_arg0) _
  unfold V
  congr 1
  funext d
  apply Fin.ext
  match d with
  | ⟨0, _⟩ => show win0_0.index t (0 : Fin 2) * 1024 + 1 * a.val = 1024 * r.val + a.val; rw [(idx_x t).1, hr]; omega
  | ⟨1, _⟩ => show win0_0.index t (1 : Fin 2) * 1024 + 1 * cc.val = 1024 * k.val + cc.val; rw [(idx_x t).2, hk]; omega

/-- The stored-weights block: rows of the output's column block `cb`, columns of stretch `k`. -/
theorem qblk_apply (c : Dev nD) (t : Fin cfg0.N) (cb k : Fin 4) (hc : t.val / 4 % 4 = cb.val) (hk : t.val % 4 = k.val)
    (b cc : Fin 1024) :
    (iblk m c 1 t : Vec F S1024x1024 .i32) (ix2 b cc) = m ((c : Thread nD τ).loc main_arg1) (ix2 (col cb b) (col k cc)) := by
  unfold iblk
  rw [View.read_apply]
  show V m c main_arg1 _ = m (c.tc.loc main_arg1) _
  unfold V
  congr 1
  funext d
  apply Fin.ext
  match d with
  | ⟨0, _⟩ => show win0_1.index t (0 : Fin 2) * 1024 + 1 * b.val = 1024 * cb.val + b.val; rw [(idx_q t).1, hc]; omega
  | ⟨1, _⟩ => show win0_1.index t (1 : Fin 2) * 1024 + 1 * cc.val = 1024 * k.val + cc.val; rw [(idx_q t).2, hk]; omega

/-- The scale columns the step uses: rows of column block `cb`, groups of stretch `k`. -/
theorem sblk_apply (c : Dev nD) (t : Fin cfg0.N) (cb k : Fin 4) (hc : t.val / 4 % 4 = cb.val) (hk : t.val % 4 = k.val)
    (b : Fin 1024) (g : Fin 32) :
    scaleCols (grid0.coords t) (iblk m c 2 t : Vec F S1024x128 .f32) (ix2 b g)
      = m ((c : Thread nD τ).loc main_arg2) (ix2 (col cb b) (grpOf k g)) := by
  have ho : k0_off1 (grid0.coords t) = ![0, 32 * k.val] := by rw [k0_off1_eq, step_k t, hk]
  show (iblk m c 2 t : Vec F S1024x128 .f32)
    ((Rect.unit (s := S1024x128) (k0_off1 (grid0.coords t)) S1024x32.size (Facts₀.k0_off1_inb (grid0.coords t))).idx (ix2 b g)) = _
  unfold iblk
  rw [View.read_apply]
  show V m c main_arg2 _ = m (c.tc.loc main_arg2) _
  unfold V
  congr 1
  funext d
  apply Fin.ext
  match d with
  | ⟨0, _⟩ =>
    show win0_2.index t (0 : Fin 2) * 1024 + 1 * (k0_off1 (grid0.coords t) 0 + 1 * b.val) = 1024 * cb.val + b.val
    rw [(idx_s t).1, hc, ho]
    show cb.val * 1024 + 1 * (0 + 1 * b.val) = 1024 * cb.val + b.val
    omega
  | ⟨1, _⟩ =>
    show win0_2.index t (1 : Fin 2) * 128 + 1 * (k0_off1 (grid0.coords t) 1 + 1 * g.val) = 32 * k.val + g.val
    rw [(idx_s t).2, ho]
    show 0 * 128 + 1 * (32 * k.val + 1 * g.val) = 32 * k.val + g.val
    omega

/-- The bias block: entries of column block `cb`. -/
theorem bblk_apply (c : Dev nD) (t : Fin cfg0.N) (cb : Fin 4) (hc : t.val / 4 % 4 = cb.val) (b : Fin 1024) :
    (iblk m c 3 t : Vec F S1024 .f32) (ix1 b) = m ((c : Thread nD τ).loc main_arg3) (ix1 (col cb b)) := by
  unfold iblk
  rw [View.read_apply]
  show V m c main_arg3 _ = m (c.tc.loc main_arg3) _
  unfold V
  congr 1
  funext d
  apply Fin.ext
  match d with
  | ⟨0, _⟩ => show win0_3.index t (0 : Fin 1) * 1024 + 1 * b.val = 1024 * cb.val + b.val; rw [idx_b t, hc]; omega

/-- Where entry `(a, b)` of the output block at step `t` lies in the output array. -/
theorem oblk_emb (t : Fin cfg0.N) (r : Fin 8) (cb : Fin 4) (hr : t.val / 16 = r.val) (hc : t.val / 4 % 4 = cb.val)
    (a b : Fin 1024) :
    ((cfg0.win 4).blk t).view.emb (ix2 a b) = ix2 (rowOf r a) (col cb b) := by
  funext d
  apply Fin.ext
  match d with
  | ⟨0, _⟩ => show win0_4.index t (0 : Fin 2) * 1024 + 1 * a.val = 1024 * r.val + a.val; rw [(idx_o t).1, hr]; omega
  | ⟨1, _⟩ => show win0_4.index t (1 : Fin 2) * 1024 + 1 * b.val = 1024 * cb.val + b.val; rw [(idx_o t).2, hc]; omega

end Cert.KernelIdeal.Blocks

end
-- ==== Proof.KernelValue.lean ====
/-
  What the kernel's result array holds: the layer's output.

  Fix an output block, row block `r` and column block `cb`; its reduction is the four consecutive grid steps
  `n` with `n / 16 = r` and `(n / 4) % 4 = cb`, at `n % 4 = 0, 1, 2, 3`. Step `k` adds to the accumulator at `(a, b)`
  the sum over stretch `k` of the 4096 reduction columns of `x[1024 r + a, i] * w[1024 cb + b, i]`; the first step
  starts from zero. After the fourth step the accumulator is `(((0 + T₀) + T₁) + T₂) + T₃`, and that step stores it
  plus the bias into the output block, the only block written back: the sum of the four stretches is the sum over all
  columns (a regrouping of a finite sum, which needs no finiteness on the extended reals). The 32 written-back blocks
  tile the 8192×4096 result.
-/
import proofs.«151352_j63264868270569_1_alg».proof.Proof.Gen.KernelIdeal.Value
import proofs.«151352_j63264868270569_1_alg».proof.Proof.Pieces
import proofs.«151352_j63264868270569_1_alg».proof.Proof.Payload
import proofs.«151352_j63264868270569_1_alg».proof.Proof.Blocks
import proofs.«151352_j63264868270569_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Pieces Cert.KernelIdeal.Payload Cert.KernelIdeal.Blocks Cert.QLinear

variable (m : (ℓ : Loc nD τ sig) → Buf (Elt Ideal) ℓ) (ρ : Dev nD → PrngReg)

/-- The four argument arrays as launched. -/
abbrev argX (c : Dev nD) : S8192x4096.Idx → EReal := m ((c : Thread nD τ).loc main_arg0)
abbrev argQ (c : Dev nD) : S4096x4096.Idx → BitVec 32 := m ((c : Thread nD τ).loc main_arg1)
abbrev argS (c : Dev nD) : S4096x128.Idx → EReal := m ((c : Thread nD τ).loc main_arg2)
abbrev argB (c : Dev nD) : S4096.Idx → EReal := m ((c : Thread nD τ).loc main_arg3)

/-- The summands of output entry `(1024 r + a, 1024 cb + b)`, as a function of the reduction column. -/
abbrev summand (c : Dev nD) (r : Fin 8) (cb : Fin 4) (a b : Fin 1024) : Fin 4096 → EReal :=
  term (argX m c) (argQ m c) (argS m c) (rowOf r a) (col cb b)

/-- Column `cc` of stretch `k` lies in scale group `32 k + cc / 32`. -/
theorem grp_col (k : Fin 4) (cc : Fin 1024) : grp (col k cc) = grpOf k (tgrp cc) := by
  apply Fin.ext
  show (1024 * k.val + cc.val) / 32 = 32 * k.val + cc.val / 32
  omega

/-- ONE STEP: at `(a, b)`, what the step stores into the accumulator is what it held plus the step's stretch of the sum. -/
theorem step_at (c : Dev nD) (t : Fin cfg0.N) (r : Fin 8) (cb k : Fin 4) (hr : t.val / 16 = r.val)
    (hc : t.val / 4 % 4 = cb.val) (hk : t.val % 4 = k.val) (acc : Vec Ideal S1024x1024 .f32) (a b : Fin 1024) :
    k0_pay2 (scaleCols (grid0.coords t) (iblk m c 2 t)) (iblk m c 1 t) (iblk m c 0 t) acc (ix2 a b)
      = acc (ix2 a b) + tileSum (summand m c r cb a b) k := by
  refine (step_apply (scaleCols (grid0.coords t) (iblk m c 2 t)) (iblk m c 1 t) (iblk m c 0 t) acc a b).trans ?_
  refine congrArg (acc (ix2 a b) + ·) (Finset.sum_congr rfl fun cc _ => ?_)
  rw [xblk_apply m c t r k hr hk a cc, qblk_apply m c t cb k hc hk b cc, sblk_apply m c t cb k hc hk b (tgrp cc)]
  show _ = argX m c (ix2 (rowOf r a) (col k cc))
    * (((((argQ m c (ix2 (col cb b) (col k cc))).toInt : ℝ) : EReal) - Ideal.ofBits .f32 0x43000000#32)
        * argS m c (ix2 (col cb b) (grp (col k cc))))
  rw [grp_col]

/-- After the first step of a reduction. -/
theorem acc0 (c : Dev nD) (n : ℕ) (hn : n < cfg0.N) (r : Fin 8) (cb : Fin 4) (hr : n / 16 = r.val) (hc : n / 4 % 4 = cb.val)
    (hk : n % 4 = 0) (a b : Fin 1024) :
    (outsAt0 m c n hn).2 (ix2 a b) = 0 + tileSum (summand m c r cb a b) 0 := by
  have h1 : ¬n % 4 = 3 := by omega
  rw [outsAt0_A m c (⟨n, hn⟩ : Fin cfg0.N) hk h1]
  dsimp only
  refine (congrFun (acc_A c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) ((hcond0_0 (⟨n, hn⟩ : Fin cfg0.N)).mpr hk) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N))) (ix2 a b)).trans ?_
  refine (step_at m c (⟨n, hn⟩ : Fin cfg0.N) r cb 0 hr hc hk (k0_pay1 (F := Ideal)) a b).trans ?_
  rw [zero_apply]

/-- After the second step. -/
theorem acc1 (c : Dev nD) (n : ℕ) (hn : n < cfg0.N) (r : Fin 8) (cb : Fin 4) (hr : n / 16 = r.val) (hc : n / 4 % 4 = cb.val)
    (hk : n % 4 = 1) (a b : Fin 1024) :
    (outsAt0 m c n hn).2 (ix2 a b) = 0 + tileSum (summand m c r cb a b) 0 + tileSum (summand m c r cb a b) 1 := by
  have h0 : ¬n % 4 = 0 := by omega
  have h1 : ¬n % 4 = 3 := by omega
  rw [outsAt0_B m c (⟨n, hn⟩ : Fin cfg0.N) h0 h1]
  dsimp only
  refine (congrFun (acc_B c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) (Nat.lt_of_le_of_lt (Nat.sub_le _ _) hn)).2) (ix2 a b)).trans ?_
  refine (step_at m c (⟨n, hn⟩ : Fin cfg0.N) r cb 1 hr hc hk _ a b).trans ?_
  exact congrArg (· + tileSum (summand m c r cb a b) 1)
    (acc0 m c (n - 1) (Nat.lt_of_le_of_lt (Nat.sub_le _ _) hn) r cb (by omega) (by omega) (by omega) a b)

/-- After the third step. -/
theorem acc2 (c : Dev nD) (n : ℕ) (hn : n < cfg0.N) (r : Fin 8) (cb : Fin 4) (hr : n / 16 = r.val) (hc : n / 4 % 4 = cb.val)
    (hk : n % 4 = 2) (a b : Fin 1024) :
    (outsAt0 m c n hn).2 (ix2 a b)
      = 0 + tileSum (summand m c r cb a b) 0 + tileSum (summand m c r cb a b) 1 + tileSum (summand m c r cb a b) 2 := by
  have h0 : ¬n % 4 = 0 := by omega
  have h1 : ¬n % 4 = 3 := by omega
  rw [outsAt0_B m c (⟨n, hn⟩ : Fin cfg0.N) h0 h1]
  dsimp only
  refine (congrFun (acc_B c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) (Nat.lt_of_le_of_lt (Nat.sub_le _ _) hn)).2) (ix2 a b)).trans ?_
  refine (step_at m c (⟨n, hn⟩ : Fin cfg0.N) r cb 2 hr hc hk _ a b).trans ?_
  exact congrArg (· + tileSum (summand m c r cb a b) 2)
    (acc1 m c (n - 1) (Nat.lt_of_le_of_lt (Nat.sub_le _ _) hn) r cb (by omega) (by omega) (by omega) a b)

/-- THE OUTPUT BLOCK after the fourth step: the layer's output at the block's entries. -/
theorem outblk_apply (c : Dev nD) (n : ℕ) (hn : n < cfg0.N) (r : Fin 8) (cb : Fin 4) (hr : n / 16 = r.val) (hc : n / 4 % 4 = cb.val)
    (hk : n % 4 = 3) (a b : Fin 1024) :
    (outsAt0 m c n hn).1 (ix2 a b)
      = out (argX m c) (argQ m c) (argS m c) (argB m c) (ix2 (rowOf r a) (col cb b)) := by
  have h0 : ¬n % 4 = 0 := by omega
  rw [outsAt0_C m c (⟨n, hn⟩ : Fin cfg0.N) h0 hk]
  dsimp only
  refine (congrFun (out_C c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) (fun h => h0 ((hcond0_0 (⟨n, hn⟩ : Fin cfg0.N)).mp h)) ((hcond0_1 (⟨n, hn⟩ : Fin cfg0.N)).mpr hk) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) (Nat.lt_of_le_of_lt (Nat.sub_le _ _) hn)).2) (ix2 a b)).trans ?_
  refine (bias_apply _ (iblk m c 3 (⟨n, hn⟩ : Fin cfg0.N)) a b).trans ?_
  rw [step_at m c (⟨n, hn⟩ : Fin cfg0.N) r cb 3 hr hc hk _ a b,
    acc2 m c (n - 1) (Nat.lt_of_le_of_lt (Nat.sub_le _ _) hn) r cb (by omega) (by omega) (by omega) a b,
    bblk_apply m c (⟨n, hn⟩ : Fin cfg0.N) cb hc b]
  exact chain_eq_out (summand m c r cb a b) _

/-- The result array's contents: the layer's output of the four arguments as launched. -/
abbrev result (c : Dev nD) : Buf (Elt Ideal) ((c : Thread nD τ).loc main_v0) :=
  out (argX m c) (argQ m c) (argS m c) (argB m c)

/-- What a fourth step leaves in the output block, entry by entry, is the result read through the block. -/
theorem flushed_at (c : Dev nD) (t : Fin cfg0.N) (h3 : t.val % 4 = 3) (j : S1024x1024.Idx) :
    (outsAt0 m c t.val t.isLt).1 j = result m c (((cfg0.win 4).blk t).view.emb j) := by
  have hN : t.val < 128 := lt_of_lt_of_eq t.isLt (show cfg0.N = 128 from N_0)
  obtain ⟨a, b, rfl⟩ : ∃ (a b : Fin 1024), j = ix2 a b := ⟨j 0, j 1, eq_ix2 j⟩
  rw [oblk_emb t ⟨t.val / 16, by omega⟩ ⟨t.val / 4 % 4, by omega⟩ rfl rfl a b]
  exact outblk_apply m c t.val t.isLt ⟨t.val / 16, by omega⟩ ⟨t.val / 4 % 4, by omega⟩ rfl rfl h3 a b

/-- WHAT A WRITE-BACK WRITES is its block of the result. -/
theorem flushed_eq (c : Dev nD) (t : Fin cfg0.N) (hf : (cfg0.win 4).flush t = true) :
    (dats m 0 c).flushed 4 t = ((cfg0.win 4).blk t).view.read (Elt Ideal) (result m c) := by
  rw [Value.flushed4]
  funext j
  exact flushed_at m c t ((flush0_4 t).mp hf) j

/-- An index of the result array is in step `t`'s block iff each coordinate is in the block's range on its axis. -/
theorem mem_blk (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v0).slice (win0_4.rect t)).set ↔ _
  rw [View.set_slice_whole, Rect.mem_set_unit]
  exact Iff.rfl

/-- THE COVER: entry `(i₀, i₁)` of the result lies in the block the fourth step of the reduction of row block
    `i₀ / 1024` and column block `i₁ / 1024` writes back. -/
theorem cover (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 128 := N_0
  refine ⟨⟨16 * ((i 0).val / 1024) + 4 * ((i 1).val / 1024) + 3, by rw [hN]; omega⟩, (flush0_4 _).mpr (by show (16 * ((i 0).val / 1024) + 4 * ((i 1).val / 1024) + 3) % 4 = 3; omega), ?_⟩
  rw [mem_blk]
  intro a
  match a with
  | ⟨0, _⟩ =>
    show win0_4.index _ (0 : Fin 2) * 1024 ≤ (i 0).val ∧ (i 0).val < win0_4.index _ (0 : Fin 2) * 1024 + 1024
    rw [(idx_o _).1]
    show (16 * ((i 0).val / 1024) + 4 * ((i 1).val / 1024) + 3) / 16 * 1024 ≤ (i 0).val
      ∧ (i 0).val < (16 * ((i 0).val / 1024) + 4 * ((i 1).val / 1024) + 3) / 16 * 1024 + 1024
    omega
  | ⟨1, _⟩ =>
    show win0_4.index _ (1 : Fin 2) * 1024 ≤ (i 1).val ∧ (i 1).val < win0_4.index _ (1 : Fin 2) * 1024 + 1024
    rw [(idx_o _).2]
    show (16 * ((i 0).val / 1024) + 4 * ((i 1).val / 1024) + 3) / 4 % 4 * 1024 ≤ (i 1).val
      ∧ (i 1).val < (16 * ((i 0).val / 1024) + 4 * ((i 1).val / 1024) + 3) / 4 % 4 * 1024 + 1024
    omega

/-- So the result array ends holding the layer's output. -/
theorem final (c : Dev nD) : (dats m 0 c).arrAt 4 cfg0.N = result m c :=
  (dats m 0 c).arrAt_eq_of_cover 4 (result m c) (fun t hf => flushed_eq m c t hf) cover

/-- The run, read: the result array at the layer's output, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.RefValue.lean ====
/-
  The reference computes the specification.

  The reference dequantizes the whole 4096×4096 weight array — the integers minus 128, viewed as 4096×128×32 so that
  one scale multiplies each group of 32 columns, and viewed back —, contracts the activations with it along the
  column axis, and adds the bias row. Both views keep the row-major position, so entry `(o, i)` of the
  dequantized array is `(q[o,i] - 128) * s[o, i / 32]`, and the result at `(t, o)` is
  `(Σ_i x[t,i] * w[o,i]) + b[o]`.
-/
import proofs.«151352_j63264868270569_1_alg».proof.Proof.Gen.ReferenceIdeal.Read
import proofs.«151352_j63264868270569_1_alg».proof.Proof.Spec

noncomputable section

open Idealize.ShloMosaic Idealize.ShloMosaic.ValueIdx

namespace Cert.ReferenceIdeal.RefValue

open Cert.ReferenceIdeal Cert.ReferenceIdeal.Gen Cert.ReferenceIdeal.Read Cert.QLinear

/-- The dequantized weight array at `(o, i)`. -/
theorem weight_apply (x1 : (⟨S4096x4096, .i32⟩ : BufTy).Contents (Elt Ideal))
    (x2 : (⟨S4096x128, .f32⟩ : BufTy).Contents (Elt Ideal)) (o i : Fin 4096) :
    val_main_v7 (F := Ideal) x1 x2 (ix2 o i) = weight x1 x2 o i := by
  have ho := o.isLt
  have hi := i.isLt
  rw [val_main_v7_apply, val_main_v6_apply, val_main_v3_apply, val_main_v2_apply, val_main_v0_apply,
    val_main_v1_apply, val_main_cst_apply, val_main_v5_apply, val_main_v4_apply]
  have e2 : idx_main_v3 (idx_main_v7 (ix2 o i)) = ix2 o i := funext fun a => Fin.ext (by
    match a with
    | ⟨0, _⟩ =>
      show (((o.val * 4096 + i.val) / 4096 * 128 + (o.val * 4096 + i.val) / 32 % 128) * 32 + (o.val * 4096 + i.val) % 32) / 4096 = o.val
      omega
    | ⟨1, _⟩ =>
      show (((o.val * 4096 + i.val) / 4096 * 128 + (o.val * 4096 + i.val) / 32 % 128) * 32 + (o.val * 4096 + i.val) % 32) % 4096 = i.val
      omega)
  have e3 : idx_main_v4 (idx_main_v5 (idx_main_v7 (ix2 o i))) = ix2 o (grp i) := funext fun a => Fin.ext (by
    match a with
    | ⟨0, _⟩ => show (o.val * 4096 + i.val) / 4096 = o.val; omega
    | ⟨1, _⟩ => show (o.val * 4096 + i.val) / 32 % 128 = i.val / 32; omega)
  rw [e2, e3]
  rfl

/-- The reference's result is the layer's output. -/
theorem result_eq (x0 : (⟨S8192x4096, .f32⟩ : BufTy).Contents (Elt Ideal)) (x1 : (⟨S4096x4096, .i32⟩ : BufTy).Contents (Elt Ideal))
    (x2 : (⟨S4096x128, .f32⟩ : BufTy).Contents (Elt Ideal)) (x3 : (⟨S4096, .f32⟩ : BufTy).Contents (Elt Ideal)) :
    val_main_v11 (F := Ideal) x0 x1 x2 x3 = out x0 x1 x2 x3 := by
  funext j
  obtain ⟨t, o, rfl⟩ : ∃ (t : Fin 8192) (o : Fin 4096), j = ix2 t o := ⟨j 0, j 1, eq_ix2 j⟩
  rw [val_main_v11_apply, val_main_v8_apply, val_main_v10_apply, val_main_v9_apply]
  have eb : idx_main_v9 (idx_main_v10 (ix2 t o)) = ix1 o := funext fun a => Fin.ext (by
    match a with
    | ⟨0, _⟩ => rfl)
  have es : ∀ k : Fin 4096, x0 (lidx_main_v8 (ix2 t o) k) * val_main_v7 (F := Ideal) x1 x2 (ridx_main_v8 (ix2 t o) k)
      = term x0 x1 x2 t o k := fun k => by
    have el : lidx_main_v8 (ix2 t o) k = ix2 t k := funext fun a => Fin.ext (by
      match a with
      | ⟨0, _⟩ => rfl
      | ⟨1, _⟩ => rfl)
    have er : ridx_main_v8 (ix2 t o) k = ix2 o k := funext fun a => Fin.ext (by
      match a with
      | ⟨0, _⟩ => rfl
      | ⟨1, _⟩ => rfl)
    rw [el, er, weight_apply]
    rfl
  rw [eb, Finset.sum_congr rfl fun k _ => es k]
  rfl

end Cert.ReferenceIdeal.RefValue

end
-- ==== Proof.lean ====
/-
  A linear layer with block-quantized weights: `y[t,o] = (Σ_i x[t,i] * w[o,i]) + b[o]` with
  `w[o,i] = (q[o,i] - 128) * s[o, i / 32]`, over 8192 rows `t`, 4096 outputs `o` and 4096 reduction columns `i`.

  The kernel computes each 1024×1024 block of `y` in four steps, one per stretch of 1024 reduction columns: it
  dequantizes the step's weight block, multiplies, and adds into an accumulator that starts at zero; the fourth step
  adds the bias and the block is written back. The reference dequantizes the whole weight array and takes one
  product. On the extended reals the two agree entry by entry: the accumulator's chain `(((0 + T₀) + T₁) + T₂) + T₃`
  of the four stretches' partial sums is the sum over all 4096 columns, a regrouping of a finite sum that uses only
  commutativity and associativity of addition — so the inputs' finiteness is never used. Narrowing the matmul's
  operands to a 16-bit format is the identity on the extended reals, and the kernel's matmul into a zero block is
  the reference's contraction.

  The three programs run, fault-free, leaving their arguments unchanged (the frames); the idealization rewrote
  nothing (`preserves` is `True`).
-/
import proofs.«151352_j63264868270569_1_alg».proof.Defs
import proofs.«151352_j63264868270569_1_alg».proof.Proof.Gen.Kernel
import proofs.«151352_j63264868270569_1_alg».proof.Proof.Gen.Kernel.Skeleton
import proofs.«151352_j63264868270569_1_alg».proof.Proof.Gen.Kernel.Launch
import proofs.«151352_j63264868270569_1_alg».proof.Proof.Gen.Kernel.Points
import proofs.«151352_j63264868270569_1_alg».proof.Proof.Gen.Kernel.Frame
import proofs.«151352_j63264868270569_1_alg».proof.Proof.Gen.KernelIdeal
import proofs.«151352_j63264868270569_1_alg».proof.Proof.Gen.KernelIdeal.Skeleton
import proofs.«151352_j63264868270569_1_alg».proof.Proof.Gen.KernelIdeal.Launch
import proofs.«151352_j63264868270569_1_alg».proof.Proof.Gen.KernelIdeal.Points
import proofs.«151352_j63264868270569_1_alg».proof.Proof.Gen.KernelIdeal.Frame
import proofs.«151352_j63264868270569_1_alg».proof.Proof.Gen.ReferenceIdeal
import proofs.«151352_j63264868270569_1_alg».proof.Proof.Gen.Pre_finite_inputs
import proofs.«151352_j63264868270569_1_alg».proof.Proof.Gen.KernelIdeal.Value
import proofs.«151352_j63264868270569_1_alg».proof.Proof.Gen.ReferenceIdeal.Run
import proofs.«151352_j63264868270569_1_alg».proof.Proof.Gen.ReferenceIdeal.Read
import proofs.«151352_j63264868270569_1_alg».proof.Proof.KernelValue
import proofs.«151352_j63264868270569_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: it runs, and its arguments are never written. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array and the reference's, from arguments that agree, both hold the
    layer's output. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
